-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S8192 .f32) (main_arg3 : FVec F S8192x2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S8192x2048 : Shape := ⟨2, ![8192, 2048]⟩
abbrev S8192 : Shape := ⟨1, ![8192]⟩
abbrev S8192x1 : Shape := ⟨2, ![8192, 1]⟩
abbrev S1x1 : Shape := ⟨2, ![1, 1]⟩
abbrev S256x2048 : Shape := ⟨2, ![256, 2048]⟩
abbrev S256x1 : Shape := ⟨2, ![256, 1]⟩
abbrev S256 : Shape := ⟨1, ![256]⟩
abbrev S1 : Shape := ⟨1, ![1]⟩
abbrev S_ : Shape := ⟨0, ![]⟩

abbrev nBuf : Space → Nat
  | .hbm => 11
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v47 : BitVec 1 := Scalar.cmpi .eq arg0 c31_i32
  let v48 : BitVec 32 := Scalar.extui v47
  let c0_i32_27 : BitVec 32 := 0#32
  let v49 : BitVec 1 := Scalar.cmpi .ne v48 c0_i32_27
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192 : Shape := ⟨1, ![8192]⟩
abbrev S8192x1 : Shape := ⟨2, ![8192, 1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x1, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  reducesTo_S8192x2048_S_d0_1 : S8192x2048.ReducesTo [0, 1] S_
  h_S_ : 0 < S_.numel
  bcast_S_S8192x2048 : S_.BroadcastsInDim S8192x2048 (![] : Fin 0 → Fin S8192x2048.rank)

variable [Facts₀]

class Facts : Prop extends Facts₀ where

variable [Facts]
-- ==== Proof.LossTerms.lean ====
import Idealize.ShloMosaic.PureOps.Ideal
import Idealize.ShloMosaic.Lib.ValueIdx

/-!
# The two losses, entry by entry and as totals

Over the extended reals, for arrays `input`, `target`, `sub_target`, `target_pre`, `sub_obrT` of shape [8192, 2048]
and a weight vector of length 8192:

* the weighted squared error at `(p, q)` is `(w p · (target (p, q) − input (p, q)))²`, and the first loss is the sum of
  these over all entries divided by the element count 2²⁴;
* the weighted cross-entropy at `(p, q)` is `|(t · log (x + ε) + (1 − t) · log ((1 − x) + ε)) · o|` with
  `t = sub_target (p, q)`, `x = target_pre (p, q)`, `o = sub_obrT (p, q)`, and the second loss is the sum of these over
  all entries divided by the same count.

The three float literals (`ε`, `1`, the count) are kept as their words: both programs carry the same words.
-/

noncomputable section

namespace Cert.Loss

open Idealize.ShloMosaic Idealize.ShloMosaic.ValueIdx

/-- The small positive shift inside both logarithms. -/
def eps : EReal := Ideal.ofBits .f32 0x2EDBE6FF#32
/-- The literal one. -/
def one : EReal := Ideal.ofBits .f32 0x3F800000#32
/-- The element count 8192 · 2048, as the float literal both programs divide by. -/
def count : EReal := Ideal.ofBits .f32 0x4B800000#32

/-- The weighted squared error of one entry. -/
def sq (w tg ip : EReal) : EReal := (w * (tg - ip)) * (w * (tg - ip))

/-- The weighted cross-entropy of one entry. -/
def ce (st tp ob : EReal) : EReal :=
  max ((st * Ideal.log (tp + eps) + (one - st) * Ideal.log (one - tp + eps)) * ob)
    (-((st * Ideal.log (tp + eps) + (one - st) * Ideal.log (one - tp + eps)) * ob))

/-- A matrix of the arguments' shape. -/
abbrev Mat : Type := (⟨2, ![8192, 2048]⟩ : Shape).Idx → EReal
/-- The weight vector's shape. -/
abbrev Wt : Type := (⟨1, ![8192]⟩ : Shape).Idx → EReal

/-- The sum of the weighted squared errors over all entries. -/
def sqTotal (ip tg : Mat) (w : Wt) : EReal :=
  ∑ p : Fin 8192, ∑ q : Fin 2048, sq (w (ix1 p)) (tg (ix2 p q)) (ip (ix2 p q))

/-- The sum of the weighted cross-entropies over all entries. -/
def ceTotal (st tp ob : Mat) : EReal :=
  ∑ p : Fin 8192, ∑ q : Fin 2048, ce (st (ix2 p q)) (tp (ix2 p q)) (ob (ix2 p q))

/-- The first loss: the mean weighted squared error. -/
def wmse (ip tg : Mat) (w : Wt) : EReal := Ideal.div (sqTotal ip tg w) count

/-- The second loss: the mean weighted cross-entropy. -/
def wcl (st tp ob : Mat) : EReal := Ideal.div (ceTotal st tp ob) count

end Cert.Loss

end
-- ==== Proof.RefRead.lean ====
import proofs.«165199_j9749575762182_1_alg».proof.Defs
import proofs.«165199_j9749575762182_1_alg».proof.Proof.Gen.ReferenceIdeal.Read
import proofs.«165199_j9749575762182_1_alg».proof.Proof.LossTerms
import Idealize.ShloMosaic.Lib.ValueIdx
import Idealize.ShloMosaic.PureOps.Ideal.Laws

/-!
# The reference's two results are the two losses

Read one operation at a time, the reference's first result is the sum over all entries of
`(w p · (target (p, q) − input (p, q)))²` (added to the zero it starts from) divided by the element count, and its second
result the sum over all entries of the entrywise cross-entropy term divided by the same count: the sums over the index
set [8192, 2048] are double sums over the two coordinates.
-/

noncomputable section

namespace Cert.ReferenceIdeal.RefValue

open Idealize.ShloMosaic Idealize.ShloMosaic.ValueIdx Cert.ReferenceIdeal Cert.ReferenceIdeal.Read

/-- The weight row an entry `(p, q)` reads, through the two broadcasts. -/
theorem idx_weight (p : Fin 8192) (q : Fin 2048) : idx_main_v0 (idx_main_v2 (ix2 p q)) = ix1 p :=
  funext fun a => match a with | ⟨0, _⟩ => rfl

/-- The squared weighted difference at an entry. -/
theorem sq_entry (x0 x1 : (⟨S8192x2048, .f32⟩ : BufTy).Contents (Elt Ideal)) (x2 : (⟨S8192, .f32⟩ : BufTy).Contents (Elt Ideal))
    (p : Fin 8192) (q : Fin 2048) :
    val_main_v4 (F := Ideal) x0 x1 x2 (ix2 p q) = Cert.Loss.sq (x2 (ix1 p)) (x1 (ix2 p q)) (x0 (ix2 p q)) := by
  rw [val_main_v4_apply, val_main_v3_apply, val_main_v2_apply, val_main_v0_apply, val_main_v1_apply, idx_weight]
  rfl

/-- The first result is the mean weighted squared error. -/
theorem v6_eq (x0 x1 : (⟨S8192x2048, .f32⟩ : BufTy).Contents (Elt Ideal)) (x2 : (⟨S8192, .f32⟩ : BufTy).Contents (Elt Ideal)) :
    val_main_v6 (F := Ideal) x0 x1 x2 = fun _ => Cert.Loss.wmse x0 x1 x2 := by
  funext i
  rw [val_main_v6_apply, val_main_v5_apply, sum_idx2]
  show Ideal.div (Ideal.ofBits .f32 0x00000000#32 + _) (Ideal.ofBits .f32 0x4B800000#32) = _
  rw [Ideal.ofBits_zero_f32, zero_add]
  unfold Cert.Loss.wmse Cert.Loss.sqTotal Cert.Loss.count
  refine congrArg (Ideal.div · _) ?_
  exact Finset.sum_congr rfl fun p _ => Finset.sum_congr rfl fun q _ => sq_entry x0 x1 x2 p q

/-- The cross-entropy term at an entry. -/
theorem ce_entry (x3 x4 x5 : (⟨S8192x2048, .f32⟩ : BufTy).Contents (Elt Ideal)) (j : S8192x2048.Idx) :
    val_main_v21 (F := Ideal) x3 x4 x5 j = Cert.Loss.ce (x3 j) (x4 j) (x5 j) := by
  rw [val_main_v21_apply, val_main_v20_apply, val_main_v19_apply, val_main_v10_apply, val_main_v9_apply, val_main_v8_apply,
    val_main_v7_apply, val_main_cst_1_apply, val_main_v18_apply, val_main_v12_apply, val_main_v11_apply, val_main_cst_2_apply,
    val_main_v17_apply, val_main_v16_apply, val_main_v14_apply, val_main_v13_apply, val_main_cst_3_apply, val_main_v15_apply,
    val_main_cst_4_apply]
  rfl

/-- The second result is the mean weighted cross-entropy. -/
theorem v23_eq (x3 x4 x5 : (⟨S8192x2048, .f32⟩ : BufTy).Contents (Elt Ideal)) :
    val_main_v23 (F := Ideal) x3 x4 x5 = fun _ => Cert.Loss.wcl x3 x4 x5 := by
  funext i
  rw [val_main_v23_apply, val_main_v22_apply, sum_idx2]
  show Ideal.div (Ideal.ofBits .f32 0x00000000#32 + _) (Ideal.ofBits .f32 0x4B800000#32) = _
  rw [Ideal.ofBits_zero_f32, zero_add]
  unfold Cert.Loss.wcl Cert.Loss.ceTotal Cert.Loss.count
  refine congrArg (Ideal.div · _) ?_
  exact Finset.sum_congr rfl fun p _ => Finset.sum_congr rfl fun q _ => ce_entry x3 x4 x5 (ix2 p q)

end Cert.ReferenceIdeal.RefValue

end
-- ==== Proof.KernelCases.lean ====
import proofs.«165199_j9749575762182_1_alg».proof.Defs
import proofs.«165199_j9749575762182_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
# What the loss kernel's body leaves behind, case by case

The body keeps two running totals in two one-entry scratch buffers. At the grid's first point it stores zero into both
and adds that point's block totals; at every later point it adds the point's block totals to what the point before
left; at the last point it also divides each running total by the element count and stores the quotients into the two
outputs. Each found piece list is read back here as ONE payload term of the input blocks (and of the carried totals).
-/

namespace Cert.KernelIdeal.Cases
open Cert.KernelIdeal Cert.KernelIdeal.Gen
variable {F : FTy → Type} [FloatOps F]

theorem hz : (![0, 0] : Fin 2 → Nat) = fun _ => 0 := funext fun a => by fin_cases a <;> rfl

/-- First point, squared-error total: the zero just stored plus the block's total. -/
theorem scratch0_A (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : cond0_0 i) (hc1 : ¬cond0_1 i) (x0 x1 : Vec F S256x2048 .f32) (x2 : Vec F S256x1 .f32) (x3 x4 x5 : Vec F S256x2048 .f32) :
    sout0_A_0 c i a1 h1 a2 h2 a3 h3 a4 h4 a5 h5 a6 h6 a7 h7 a8 h8 a9 h9 a10 h10 hc0 hc1 x0 x1 x2 x3 x4 x5 = k0_pay6 x1 x0 x2 (k0_pay4 (F := F)) := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]

/-- First point, cross-entropy total. -/
theorem scratch1_A (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : cond0_0 i) (hc1 : ¬cond0_1 i) (x0 x1 : Vec F S256x2048 .f32) (x2 : Vec F S256x1 .f32) (x3 x4 x5 : Vec F S256x2048 .f32) :
    sout0_A_1 c i a1 h1 a2 h2 a3 h3 a4 h4 a5 h5 a6 h6 a7 h7 a8 h8 a9 h9 a10 h10 hc0 hc1 x0 x1 x2 x3 x4 x5 = k0_pay1 (k0_pay7 x3 x4) x5 (k0_pay5 (F := F)) := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]

/-- A middle point, squared-error total: what the point before left plus the block's total. -/
theorem scratch0_B (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : ¬cond0_1 i) (x0 x1 : Vec F S256x2048 .f32) (x2 : Vec F S256x1 .f32) (x3 x4 x5 : Vec F S256x2048 .f32) (xs0 xs1 : Vec F S1x1 .f32) :
    sout0_B_0 c i a1 h1 a2 h2 a3 h3 a4 h4 a5 h5 a6 h6 a7 h7 a8 h8 a9 h9 a10 h10 hc0 hc1 x0 x1 x2 x3 x4 x5 xs0 xs1 = k0_pay6 x1 x0 x2 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]

/-- A middle point, cross-entropy total. -/
theorem scratch1_B (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : ¬cond0_1 i) (x0 x1 : Vec F S256x2048 .f32) (x2 : Vec F S256x1 .f32) (x3 x4 x5 : Vec F S256x2048 .f32) (xs0 xs1 : Vec F S1x1 .f32) :
    sout0_B_1 c i a1 h1 a2 h2 a3 h3 a4 h4 a5 h5 a6 h6 a7 h7 a8 h8 a9 h9 a10 h10 hc0 hc1 x0 x1 x2 x3 x4 x5 xs0 xs1 = k0_pay1 (k0_pay7 x3 x4) x5 xs1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]

/-- Last point, squared-error total. -/
theorem scratch0_C (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i) (x0 x1 : Vec F S256x2048 .f32) (x2 : Vec F S256x1 .f32) (x3 x4 x5 : Vec F S256x2048 .f32) (xs0 xs1 : Vec F S1x1 .f32) :
    sout0_C_0 c i a1 h1 a2 h2 a3 h3 a4 h4 a5 h5 a6 h6 a7 h7 a8 h8 a9 h9 a10 h10 hc0 hc1 x0 x1 x2 x3 x4 x5 xs0 xs1 = k0_pay6 x1 x0 x2 xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]

/-- Last point, cross-entropy total. -/
theorem scratch1_C (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i) (x0 x1 : Vec F S256x2048 .f32) (x2 : Vec F S256x1 .f32) (x3 x4 x5 : Vec F S256x2048 .f32) (xs0 xs1 : Vec F S1x1 .f32) :
    sout0_C_1 c i a1 h1 a2 h2 a3 h3 a4 h4 a5 h5 a6 h6 a7 h7 a8 h8 a9 h9 a10 h10 hc0 hc1 x0 x1 x2 x3 x4 x5 xs0 xs1 = k0_pay1 (k0_pay7 x3 x4) x5 xs1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]

/-- Last point, first output: the final squared-error total over the element count. -/
theorem out6_C (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i) (x0 x1 : Vec F S256x2048 .f32) (x2 : Vec F S256x1 .f32) (x3 x4 x5 : Vec F S256x2048 .f32) (xs0 xs1 : Vec F S1x1 .f32) :
    out0_C_6 c i a1 h1 a2 h2 a3 h3 a4 h4 a5 h5 a6 h6 a7 h7 a8 h8 a9 h9 a10 h10 hc0 hc1 x0 x1 x2 x3 x4 x5 xs0 xs1 = k0_pay2 (k0_pay6 x1 x0 x2 xs0) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]
  rw [View.readCov_unit_zero (S := S1x1) _ hz]

/-- Last point, second output: the final cross-entropy total over the element count. -/
theorem out7_C (c : Dev nD) (i : grid0.Coords) (a1 : Memref sig .tc .vmem S256x2048 .f32) (h1 : a1.IsWhole) (a2 : Memref sig .tc .vmem S256x2048 .f32) (h2 : a2.IsWhole) (a3 : Memref sig .tc .vmem S256x1 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i) (x0 x1 : Vec F S256x2048 .f32) (x2 : Vec F S256x1 .f32) (x3 x4 x5 : Vec F S256x2048 .f32) (xs0 xs1 : Vec F S1x1 .f32) :
    out0_C_7 c i a1 h1 a2 h2 a3 h3 a4 h4 a5 h5 a6 h6 a7 h7 a8 h8 a9 h9 a10 h10 hc0 hc1 x0 x1 x2 x3 x4 x5 xs0 xs1 = k0_pay3 (k0_pay1 (k0_pay7 x3 x4) x5 xs1) := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz]
  simp only [View.readAt_eq_ld, h1.read_unread, h2.read_unread, h3.read_unread, h4.read_unread, h5.read_unread, h6.read_unread, h9.read_unread, h10.read_unread, View.ld_unit_zero (S := S256x2048) hz, View.ld_unit_zero (S := S256x1) hz, View.ld_unit_zero (S := S1x1) hz]
  rw [View.readCov_unit_zero (S := S1x1) _ hz]

end Cert.KernelIdeal.Cases
end
-- ==== Proof.KernelChain.lean ====
import proofs.«165199_j9749575762182_1_alg».proof.Defs
import proofs.«165199_j9749575762182_1_alg».proof.Proof.KernelCases
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
# The two running totals, point by point

After point `n` the first scratch buffer holds the squared-error payload of point `n`'s blocks applied to what point
`n - 1` left (to the stored zero at point 0), and the second scratch buffer the cross-entropy payload likewise: two
chains defined by recursion on the point. What the generated frame says the buffers hold after each point is these
chains (induction on the point, one step per control case), and after the last point the two outputs hold the chains'
last values over the element count.
-/

namespace Cert.KernelIdeal.Chain
open Cert.KernelIdeal Cert.KernelIdeal.Gen Cert.KernelIdeal.Cases
variable {F : FTy → Type} [FloatOps F]
variable (m : (ℓ : Loc nD τ sig) → Buf (Elt F) ℓ)

/-- The squared-error running total after point `n`. -/
def accSq (c : Dev nD) : (n : ℕ) → n < cfg0.N → Vec F S1x1 .f32
  | 0, h => k0_pay6 (iblk m c 1 ⟨0, h⟩) (iblk m c 0 ⟨0, h⟩) (iblk m c 2 ⟨0, h⟩) (k0_pay4 (F := F))
  | n + 1, h => k0_pay6 (iblk m c 1 ⟨n + 1, h⟩) (iblk m c 0 ⟨n + 1, h⟩) (iblk m c 2 ⟨n + 1, h⟩) (accSq c n (Nat.lt_of_succ_lt h))

/-- The cross-entropy running total after point `n`. -/
def accCe (c : Dev nD) : (n : ℕ) → n < cfg0.N → Vec F S1x1 .f32
  | 0, h => k0_pay1 (k0_pay7 (iblk m c 3 ⟨0, h⟩) (iblk m c 4 ⟨0, h⟩)) (iblk m c 5 ⟨0, h⟩) (k0_pay5 (F := F))
  | n + 1, h => k0_pay1 (k0_pay7 (iblk m c 3 ⟨n + 1, h⟩) (iblk m c 4 ⟨n + 1, h⟩)) (iblk m c 5 ⟨n + 1, h⟩) (accCe c n (Nat.lt_of_succ_lt h))

/-- What the two scratch buffers hold after point `n` is the two running totals. -/
theorem scratch_eq (c : Dev nD) : ∀ (n : ℕ) (h : n < cfg0.N),
    (outsAt0 m c n h).2.2.1 = accSq m c n h ∧ (outsAt0 m c n h).2.2.2 = accCe m c n h
  | 0, h => by
    rw [outsAt0_A m c ⟨0, h⟩ rfl (by dsimp only; omega)]
    exact ⟨scratch0_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr rfl) (fun hh => absurd ((hcond0_1 (⟨0, h⟩ : Fin cfg0.N)).mp hh) (by dsimp only; omega)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)), scratch1_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr rfl) (fun hh => absurd ((hcond0_1 (⟨0, h⟩ : Fin cfg0.N)).mp hh) (by dsimp only; omega)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N))⟩
  | n + 1, h => by
    have hN : cfg0.N = 32 := N_0
    have hlt : n + 1 < 32 := hN ▸ h
    have ih := scratch_eq c n (Nat.lt_of_succ_lt h)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      refine ⟨(scratch0_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c n (Nat.lt_of_succ_lt h)).2.2.1 (outsAt0 m c n (Nat.lt_of_succ_lt h)).2.2.2).trans ?_, (scratch1_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c n (Nat.lt_of_succ_lt h)).2.2.1 (outsAt0 m c n (Nat.lt_of_succ_lt h)).2.2.2).trans ?_⟩
      · show k0_pay6 _ _ _ (outsAt0 m c n (Nat.lt_of_succ_lt h)).2.2.1 = k0_pay6 _ _ _ (accSq m c n _)
        rw [ih.1]
      · show k0_pay1 _ _ (outsAt0 m c n (Nat.lt_of_succ_lt h)).2.2.2 = k0_pay1 _ _ (accCe m c n _)
        rw [ih.2]
    · rw [outsAt0_B m c ⟨n + 1, h⟩ h0 h1]
      refine ⟨(scratch0_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c n (Nat.lt_of_succ_lt h)).2.2.1 (outsAt0 m c n (Nat.lt_of_succ_lt h)).2.2.2).trans ?_, (scratch1_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c n (Nat.lt_of_succ_lt h)).2.2.1 (outsAt0 m c n (Nat.lt_of_succ_lt h)).2.2.2).trans ?_⟩
      · show k0_pay6 _ _ _ (outsAt0 m c n (Nat.lt_of_succ_lt h)).2.2.1 = k0_pay6 _ _ _ (accSq m c n _)
        rw [ih.1]
      · show k0_pay1 _ _ (outsAt0 m c n (Nat.lt_of_succ_lt h)).2.2.2 = k0_pay1 _ _ (accCe m c n _)
        rw [ih.2]

/-- After the last point the two outputs hold the two totals over the element count. -/
theorem outputs_eq (c : Dev nD) (n : ℕ) (h : n + 1 < cfg0.N) (h1 : (n + 1) % 32 = 31) :
    (outsAt0 m c (n + 1) h).1 = k0_pay2 (accSq m c (n + 1) h) ∧ (outsAt0 m c (n + 1) h).2.1 = k0_pay3 (accCe m c (n + 1) h) := by
  have hN : cfg0.N = 32 := N_0
  have hlt : n + 1 < 32 := hN ▸ h
  have ih := scratch_eq m c n (Nat.lt_of_succ_lt h)
  have h0 : ¬(⟨n + 1, h⟩ : Fin cfg0.N).val % 32 = 0 := by dsimp only; omega
  rw [outsAt0_C m c ⟨n + 1, h⟩ h0 h1]
  refine ⟨(out6_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c n (Nat.lt_of_succ_lt h)).2.2.1 (outsAt0 m c n (Nat.lt_of_succ_lt h)).2.2.2).trans ?_, (out7_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c n (Nat.lt_of_succ_lt h)).2.2.1 (outsAt0 m c n (Nat.lt_of_succ_lt h)).2.2.2).trans ?_⟩
  · show k0_pay2 (k0_pay6 _ _ _ (outsAt0 m c n (Nat.lt_of_succ_lt h)).2.2.1) = k0_pay2 (k0_pay6 _ _ _ (accSq m c n _))
    rw [ih.1]
  · show k0_pay3 (k0_pay1 _ _ (outsAt0 m c n (Nat.lt_of_succ_lt h)).2.2.2) = k0_pay3 (k0_pay1 _ _ (accCe m c n _))
    rw [ih.2]

end Cert.KernelIdeal.Chain
end
-- ==== Proof.KernelValue.lean ====
import proofs.«165199_j9749575762182_1_alg».proof.Defs
import proofs.«165199_j9749575762182_1_alg».proof.Proof.KernelChain
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
# What the kernel program returns

Each output window has one block, the whole [1, 1] array, written back after the last grid point only; so each
output array ends holding what the last point left in its staging buffer: the running total after the last point over
the element count. The two results of the program are these one-entry arrays reshaped to scalars.
-/

namespace Cert.KernelIdeal.Final
open Cert.KernelIdeal Cert.KernelIdeal.Gen Cert.KernelIdeal.Chain
variable {F : FTy → Type} [FloatOps F]
variable (m : (ℓ : Loc nD τ sig) → Buf (Elt F) ℓ) (ρ : Dev nD → PrngReg)

/-- The last grid point. -/
abbrev hlast : 30 + 1 < cfg0.N := by rw [show cfg0.N = 32 from N_0]; decide
abbrev tlast : Fin cfg0.N := ⟨30 + 1, hlast⟩

/-- The first output array's contents: the squared-error total after the last point over the element count. -/
abbrev res6 (c : Dev nD) : Buf (Elt F) ((c : Thread nD τ).loc main_v1_0) := k0_pay2 (accSq m c (30 + 1) hlast)
/-- The second output array's contents: the cross-entropy total after the last point over the element count. -/
abbrev res7 (c : Dev nD) : Buf (Elt F) ((c : Thread nD τ).loc main_v1_1) := k0_pay3 (accCe m c (30 + 1) hlast)

theorem flushed6_eq (c : Dev nD) (t : Fin cfg0.N) (hf : (cfg0.win 6).flush t = true) :
    (dats m 0 c).flushed 6 t = ((cfg0.win 6).blk t).view.read (Elt F) (res6 m c) := by
  have hN : cfg0.N = 32 := N_0
  have h31 : t.val = 30 + 1 := by have := (flush0_6 t).mp hf; have := t.isLt; omega
  obtain rfl : t = tlast := Fin.ext h31
  show (cfg0.win 6).cut (grid0.coords tlast) ((dats m 0 c).after 6 tlast) = _
  rw [after0_6, (outputs_eq m c 30 hlast rfl).1]
  have hz' : (fun a => win0_6.index tlast a * main_v1_0.ty.shape.size a) = fun _ => 0 := funext fun a => by fin_cases a <;> decide
  exact (Memref.read_access_unit_zero (Elt F) main_v1_0 hz' (fun a => by rw [congrFun hz' a]; simp) (res6 m c)).symm

theorem flushed7_eq (c : Dev nD) (t : Fin cfg0.N) (hf : (cfg0.win 7).flush t = true) :
    (dats m 0 c).flushed 7 t = ((cfg0.win 7).blk t).view.read (Elt F) (res7 m c) := by
  have hN : cfg0.N = 32 := N_0
  have h31 : t.val = 30 + 1 := by have := (flush0_7 t).mp hf; have := t.isLt; omega
  obtain rfl : t = tlast := Fin.ext h31
  show (cfg0.win 7).cut (grid0.coords tlast) ((dats m 0 c).after 7 tlast) = _
  rw [after0_7, (outputs_eq m c 30 hlast rfl).2]
  have hz' : (fun a => win0_7.index tlast a * main_v1_1.ty.shape.size a) = fun _ => 0 := funext fun a => by fin_cases a <;> decide
  exact (Memref.read_access_unit_zero (Elt F) main_v1_1 hz' (fun a => by rw [congrFun hz' a]; simp) (res7 m c)).symm

/-- The first output array after the run: its one block, written back after the last point, is the whole array. -/
theorem final6 (c : Dev nD) : (dats m 0 c).arrAt 6 cfg0.N = res6 m c :=
  (dats m 0 c).arrAt_eq_of_cover 6 (res6 m c) (flushed6_eq m c) fun i =>
    ⟨tlast, (flush0_6 tlast).mpr rfl, by
      show i ∈ ((View.whole main_v1_0).slice (win0_6.rect tlast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tlast 0 * win0_6.size 0 ≤ (i 0 : Nat) ∧ (i 0 : Nat) < win0_6.index tlast 0 * win0_6.size 0 + win0_6.xsize (grid0.coords tlast) 0
        rw [show win0_6.index tlast 0 * win0_6.size 0 = 0 from by decide +kernel, show win0_6.xsize (grid0.coords tlast) 0 = 1 from by decide +kernel]; omega
      | ⟨1, _⟩ =>
        show win0_6.index tlast 1 * win0_6.size 1 ≤ (i 1 : Nat) ∧ (i 1 : Nat) < win0_6.index tlast 1 * win0_6.size 1 + win0_6.xsize (grid0.coords tlast) 1
        rw [show win0_6.index tlast 1 * win0_6.size 1 = 0 from by decide +kernel, show win0_6.xsize (grid0.coords tlast) 1 = 1 from by decide +kernel]; omega⟩

/-- The second output array after the run. -/
theorem final7 (c : Dev nD) : (dats m 0 c).arrAt 7 cfg0.N = res7 m c :=
  (dats m 0 c).arrAt_eq_of_cover 7 (res7 m c) (flushed7_eq m c) fun i =>
    ⟨tlast, (flush0_7 tlast).mpr rfl, by
      show i ∈ ((View.whole main_v1_1).slice (win0_7.rect tlast)).set
      rw [View.set_slice_whole, Rect.mem_set_unit]
      intro a
      have h0 : (i 0 : Nat) < 1 := (i 0).isLt
      have h1 : (i 1 : Nat) < 1 := (i 1).isLt
      match a with
      | ⟨0, _⟩ =>
        show win0_7.index tlast 0 * win0_7.size 0 ≤ (i 0 : Nat) ∧ (i 0 : Nat) < win0_7.index tlast 0 * win0_7.size 0 + win0_7.xsize (grid0.coords tlast) 0
        rw [show win0_7.index tlast 0 * win0_7.size 0 = 0 from by decide +kernel, show win0_7.xsize (grid0.coords tlast) 0 = 1 from by decide +kernel]; omega
      | ⟨1, _⟩ =>
        show win0_7.index tlast 1 * win0_7.size 1 ≤ (i 1 : Nat) ∧ (i 1 : Nat) < win0_7.index tlast 1 * win0_7.size 1 + win0_7.xsize (grid0.coords tlast) 1
        rw [show win0_7.index tlast 1 * win0_7.size 1 = 0 from by decide +kernel, show win0_7.xsize (grid0.coords tlast) 1 = 1 from by decide +kernel]; omega⟩

/-- The program's first result: the first output array reshaped to a scalar. -/
theorem tail_v2 (c : Dev nD) :
    Pipeline.afterTail₀ cfgs (dats m) 0 (V0 m) [hostOps1] c main_v2 = shapeCast S_ (res6 m c) shapeCasts_S1x1_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1_0) = res6 m c :=
    (Pipeline.withArrays_arr spec0 launch0.win.arr_inj c _ _ 6).trans (final6 m c)
  rw [e]
  rfl

/-- The program's second result: the second output array reshaped to a scalar. -/
theorem tail_v3 (c : Dev nD) :
    Pipeline.afterTail₀ cfgs (dats m) 0 (V0 m) [hostOps1] c main_v3 = shapeCast S_ (res7 m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1_1) = res7 m c :=
    (Pipeline.withArrays_arr spec0 launch0.win.arr_inj c _ _ 7).trans (final7 m c)
  rw [e]
  rfl

/-- The run, read: every weakly fair execution terminates with the two results at the two reshaped output arrays and
    the six arguments unchanged. -/
theorem run : θ_run defs (onTc (τ := τ) (main (F := F))) ⟨m, fun _ => 0, ρ⟩ fun r => ∀ c : Dev nD,
      r.2.mem ((c.tc : Thread nD τ).loc main_v2) = shapeCast S_ (res6 m c) shapeCasts_S1x1_S_
      ∧ r.2.mem ((c.tc : Thread nD τ).loc main_v3) = shapeCast S_ (res7 m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (tail_v2 m c),
      ((h c).2 main_v3 (Pipeline.mem_restRefs_of main_v3 (by decide) (by decide))).trans (tail_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Final
end
-- ==== Proof.LibBlockTotal.lean ====
import Idealize.ShloMosaic.PureOps.Ideal.Laws
import Idealize.ShloMosaic.Lib.ValueIdx
import Idealize.ShloMosaic.Lib.Pipeline.Value
import Idealize.ShloMosaic.Lib.ValueLayout

/-!
# The total of a block, summed first along its rows and then down the column of row sums

Program-free (the library only). Over the extended reals a kernel body that reduces an `[R, C]` block along its lane
axis (keeping the axis as a column `[R, 1]`), then reduces that column along its row axis (keeping it as `[1, 1]`) —
`jnp.sum(…, axis=-1, keepdims=True)` followed by `jnp.sum(…, axis=0, keepdims=True)` — leaves at its one entry the
double sum `∑ r, ∑ l, y (r, l)` (`BlockTotal.total_apply`). On the way: a vector `[R]` cast to a column `[R, 1]`
reads its entry `r` at `(r, u)` (`BlockTotal.shapeCast_col_apply`).
-/

noncomputable section

namespace BlockTotal

open Idealize.ShloMosaic Idealize.ShloMosaic.ValueIdx

/-- A vector `[R]` cast to the column `[R, 1]` reads, at `(r, u)`, the operand's entry `r`. -/
theorem shapeCast_col_apply {α : Type} {R : ℕ} (x : (⟨1, ![R]⟩ : Shape).Idx → α)
    (h : (⟨1, ![R]⟩ : Shape).ShapeCasts ⟨2, ![R, 1]⟩) (r : Fin R) (u : Fin 1) :
    shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[R, 1]` broadcast along `C` lanes reads, at `(r, l)`, the column's entry `r`. -/
theorem broadcastTo_col_apply {α : Type} {R C : ℕ} (v : (⟨2, ![R, 1]⟩ : Shape).Idx → α)
    (h : (⟨2, ![R, 1]⟩ : Shape).Broadcasts ⟨2, ![R, C]⟩) (r : Fin R) (l : Fin C) :
    broadcastTo ⟨2, ![R, C]⟩ v h (ix2 r l) = v (ix2 r (0 : Fin 1)) := by
  refine broadcastTo_apply v h (ix2 r l) (ix2 r (0 : Fin 1)) fun ax => ?_
  match ax with
  | ⟨0, _⟩ =>
    show r.val = if R = 1 then 0 else r.val
    split
    · have := r.isLt; omega
    · rfl
  | ⟨1, _⟩ => rfl

/-- The lane sums of an `[R, C]` block, as a vector `[R]`: entry `r` is the sum of row `r`. -/
theorem laneSum_apply {R C : ℕ} (y : FVec Ideal ⟨2, ![R, C]⟩ .f32)
    (h1 : (⟨2, ![R, C]⟩ : Shape).Reduces [1] ⟨1, ![R]⟩) (hφ : FKind.Formats .f32)
    (hacc : (0x00000000#32 : BitVec 32) = FKind.add.neutral .f32 hφ) (r : Fin R) :
    multiReduction .add [1] ⟨1, ![R]⟩ y 0x00000000#32 h1 hφ hacc (ix1 r) = ∑ l : Fin C, y (ix2 r l) := by
  refine (Ideal.multiReduction_add_single y _ h1 hφ hacc (ix1 r)).trans ?_
  refine Finset.sum_congr rfl fun l _ => congrArg y ?_
  funext a
  match a with
  | ⟨0, _⟩ => exact Fin.ext rfl
  | ⟨1, _⟩ => exact Fin.ext rfl

/-- The sum down a column `[R, 1]`, as a vector `[1]`: its entry is the sum of the column's entries. -/
theorem colSum_apply {R : ℕ} (z : FVec Ideal ⟨2, ![R, 1]⟩ .f32)
    (h0 : (⟨2, ![R, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ z 0x00000000#32 h0 hφ hacc (ix1 u) = ∑ r : Fin R, z (ix2 r u) := by
  refine (Ideal.multiReduction_add_single z _ h0 hφ hacc (ix1 u)).trans ?_
  refine Finset.sum_congr rfl fun r _ => congrArg z ?_
  funext a
  match a with
  | ⟨0, _⟩ => exact Fin.ext rfl
  | ⟨1, _⟩ => exact Fin.ext rfl

/-- Rows first, then the column of row sums: the block's total, at the one entry of `[1, 1]`. -/
theorem total_apply {R C : ℕ} (y : FVec Ideal ⟨2, ![R, C]⟩ .f32)
    (h1 : (⟨2, ![R, C]⟩ : Shape).Reduces [1] ⟨1, ![R]⟩) (hc : (⟨1, ![R]⟩ : Shape).ShapeCasts ⟨2, ![R, 1]⟩)
    (h0 : (⟨2, ![R, 1]⟩ : Shape).Reduces [0] ⟨1, ![1]⟩) (hc' : (⟨1, ![1]⟩ : Shape).ShapeCasts ⟨2, ![1, 1]⟩)
    (hφ : FKind.Formats .f32) (hacc1 hacc0 : (0x00000000#32 : BitVec 32) = FKind.add.neutral .f32 hφ) (u u' : Fin 1) :
    shapeCast ⟨2, ![1, 1]⟩
        (multiReduction .add [0] ⟨1, ![1]⟩
          (shapeCast ⟨2, ![R, 1]⟩ (multiReduction .add [1] ⟨1, ![R]⟩ y 0x00000000#32 h1 hφ hacc1) hc)
          0x00000000#32 h0 hφ hacc0) hc' (ix2 u u')
      = ∑ r : Fin R, ∑ l : Fin C, y (ix2 r l) := by
  refine (shapeCast_a_1a_apply _ hc' u u').trans ?_
  refine (colSum_apply _ h0 hφ hacc0 u').trans ?_
  refine Finset.sum_congr rfl fun r _ => ?_
  refine (shapeCast_col_apply _ hc r u').trans ?_
  exact laneSum_apply y h1 hφ hacc1 r

end BlockTotal

end
-- ==== Proof.KernelPayloads.lean ====
import proofs.«165199_j9749575762182_1_alg».proof.Proof.Gen.KernelIdeal.Skeleton
import proofs.«165199_j9749575762182_1_alg».proof.Proof.LibBlockTotal
import proofs.«165199_j9749575762182_1_alg».proof.Proof.LossTerms

/-!
# The body's payloads over the extended reals

Read at its one entry, the squared-error payload is the carried total plus the double sum, over the block's 256 rows
and 2048 lanes, of `(w r · (target (r, l) − input (r, l)))²`; the cross-entropy payload is the carried total plus the
double sum of the entrywise cross-entropy terms; the two final payloads divide a total by the element count; the two
initial payloads are zero.
-/

noncomputable section

namespace Cert.KernelIdeal.Pay

open Idealize.ShloMosaic Idealize.ShloMosaic.ValueIdx Cert.KernelIdeal Cert.KernelIdeal.Gen

/-- The stored initial value of the squared-error total is zero. -/
theorem pay4_apply (j : S1x1.Idx) : k0_pay4 (F := Ideal) j = 0 := by
  unfold k0_pay4
  rw [shapeCast_self]
  exact Ideal.ofBits_zero_f32

/-- The stored initial value of the cross-entropy total is zero. -/
theorem pay5_apply (j : S1x1.Idx) : k0_pay5 (F := Ideal) j = 0 := by
  unfold k0_pay5
  rw [shapeCast_self]
  exact Ideal.ofBits_zero_f32

/-- The squared-error payload: the carried total plus the block's double sum. -/
theorem pay6_apply (v3 v4 : Vec Ideal S256x2048 .f32) (v6 : Vec Ideal S256x1 .f32) (v15 : Vec Ideal S1x1 .f32) (u u' : Fin 1) :
    k0_pay6 (F := Ideal) v3 v4 v6 v15 (ix2 u u')
      = v15 (ix2 u u') + ∑ r : Fin 256, ∑ l : Fin 2048, Cert.Loss.sq (v6 (ix2 r (0 : Fin 1))) (v3 (ix2 r l)) (v4 (ix2 r l)) := by
  unfold k0_pay6
  rw [shapeCast_self]
  refine congrArg (v15 (ix2 u u') + ·) ?_
  refine (BlockTotal.total_apply (R := 256) (C := 2048) _ reduces_S256x2048_S256 shapeCasts_S256_S256x1
    reduces_S256x1_S1 shapeCasts_S1_S1x1 (.inl rfl) rfl rfl u u').trans ?_
  refine Finset.sum_congr rfl fun r _ => Finset.sum_congr rfl fun l _ => ?_
  show (broadcastTo S256x2048 (shapeCast S256x1 v6 shapeCasts_S256x1_S256x1) broadcasts_S256x1_S256x2048 (ix2 r l) * (v3 (ix2 r l) - v4 (ix2 r l)))
      * (broadcastTo S256x2048 (shapeCast S256x1 v6 shapeCasts_S256x1_S256x1) broadcasts_S256x1_S256x2048 (ix2 r l) * (v3 (ix2 r l) - v4 (ix2 r l))) = _
  rw [shapeCast_self, BlockTotal.broadcastTo_col_apply (R := 256) (C := 2048) v6 broadcasts_S256x1_S256x2048 r l]
  rfl

/-- The entrywise cross-entropy term before the weighting by `sub_obrT`. -/
theorem pay7_apply (v20 v21 : Vec Ideal S256x2048 .f32) (j : S256x2048.Idx) :
    k0_pay7 (F := Ideal) v20 v21 j
      = v20 j * Ideal.log (v21 j + Cert.Loss.eps) + (Cert.Loss.one - v20 j) * Ideal.log (Cert.Loss.one - v21 j + Cert.Loss.eps) := rfl

/-- The cross-entropy payload: the carried total plus the block's double sum. -/
theorem pay1_apply (v20 v21 v35 : Vec Ideal S256x2048 .f32) (v42 : Vec Ideal S1x1 .f32) (u u' : Fin 1) :
    k0_pay1 (F := Ideal) (k0_pay7 (F := Ideal) v20 v21) v35 v42 (ix2 u u')
      = v42 (ix2 u u') + ∑ r : Fin 256, ∑ l : Fin 2048, Cert.Loss.ce (v20 (ix2 r l)) (v21 (ix2 r l)) (v35 (ix2 r l)) := by
  unfold k0_pay1
  rw [shapeCast_self]
  refine congrArg (v42 (ix2 u u') + ·) ?_
  refine (BlockTotal.total_apply (R := 256) (C := 2048) _ reduces_S256x2048_S256 shapeCasts_S256_S256x1
    reduces_S256x1_S1 shapeCasts_S1_S1x1 (.inl rfl) rfl rfl u u').trans ?_
  rfl

/-- The first output's payload: the total over the element count. -/
theorem pay2_apply (v50 : Vec Ideal S1x1 .f32) (j : S1x1.Idx) :
    k0_pay2 (F := Ideal) v50 j = Ideal.div (v50 j) Cert.Loss.count := rfl

/-- The second output's payload: the total over the element count. -/
theorem pay3_apply (v54 : Vec Ideal S1x1 .f32) (j : S1x1.Idx) :
    k0_pay3 (F := Ideal) v54 j = Ideal.div (v54 j) Cert.Loss.count := rfl

end Cert.KernelIdeal.Pay

end
-- ==== Proof.LibGridSum.lean ====
import Mathlib.Algebra.BigOperators.Fin
import Mathlib.Data.Fintype.BigOperators
import Mathlib.Logic.Equiv.Fin.Basic

/-!
# Sums over a row axis cut into equal blocks, and sums accumulated block by block

Program-free (Mathlib only). In any commutative additive monoid:

* `GridSum.sum_split_rows`: a sum over `N = T * R` rows is the sum over the `T` blocks of the sum over the `R` rows
  of each block, row `r` of block `t` being row `R * t + r`;
* `GridSum.sum_castLE_succ`: the sum of the first `n + 2` blocks is the sum of the first `n + 1` plus block `n + 1`
  (the step of an accumulator carried from one block to the next);
* `GridSum.sum_castLE_all`: the sum of the first `T` blocks is the sum of all blocks.
-/

namespace GridSum

variable {M : Type*} [AddCommMonoid M]

/-- Row `r` of block `t`, among `N = T * R` rows. -/
def row {N : ℕ} (T R : ℕ) (h : T * R = N) (t : Fin T) (r : Fin R) : Fin N :=
  ⟨R * t.val + r.val, by
    have h1 : R * t.val + r.val < R * t.val + R := Nat.add_lt_add_left r.isLt _
    have h2 : R * t.val + R ≤ R * T := by
      rw [← Nat.mul_succ]; exact Nat.mul_le_mul_left _ t.isLt
    rw [← h, Nat.mul_comm T R]; exact Nat.lt_of_lt_of_le h1 h2⟩

theorem row_val {N : ℕ} (T R : ℕ) (h : T * R = N) (t : Fin T) (r : Fin R) :
    (row T R h t r).val = R * t.val + r.val := rfl

/-- A sum over `T * R` rows, block by block. -/
theorem sum_split_rows {N : ℕ} (T R : ℕ) (h : T * R = N) (g : Fin N → M) :
    ∑ p, g p = ∑ t : Fin T, ∑ r : Fin R, g (row T R h t r) := by
  subst h
  rw [← Equiv.sum_comp finProdFinEquiv g, Fintype.sum_prod_type]
  refine Finset.sum_congr rfl fun t _ => Finset.sum_congr rfl fun r _ => congrArg g (Fin.ext ?_)
  simp only [finProdFinEquiv_apply_val, row_val]
  omega

/-- The first `n + 2` blocks are the first `n + 1` and block `n + 1`. -/
theorem sum_castLE_succ {T : ℕ} (B : Fin T → M) (n : ℕ) (h : n + 2 ≤ T) :
    ∑ t : Fin (n + 2), B (Fin.castLE h t)
      = ∑ t : Fin (n + 1), B (Fin.castLE (Nat.le_of_succ_le h) t) + B ⟨n + 1, h⟩ := by
  rw [Fin.sum_univ_castSucc]
  rfl

/-- The first block alone. -/
theorem sum_castLE_one {T : ℕ} (B : Fin T → M) (h : 0 + 1 ≤ T) :
    ∑ t : Fin (0 + 1), B (Fin.castLE h t) = B ⟨0, h⟩ := by
  rw [Fin.sum_univ_succ]
  simp
  rfl

/-- All `T` blocks. -/
theorem sum_castLE_all {T : ℕ} (B : Fin T → M) (h : T ≤ T) :
    ∑ t : Fin T, B (Fin.castLE h t) = ∑ t : Fin T, B t :=
  Finset.sum_congr rfl fun t _ => congrArg B (Fin.ext rfl)

end GridSum
-- ==== Proof.KernelBlocks.lean ====
import proofs.«165199_j9749575762182_1_alg».proof.Defs
import proofs.«165199_j9749575762182_1_alg».proof.Proof.Gen.KernelIdeal.Frame
import proofs.«165199_j9749575762182_1_alg».proof.Proof.LibGridSum
import proofs.«165199_j9749575762182_1_alg».proof.Proof.LibBlockTotal
import Idealize.ShloMosaic.Lib.Pipeline.Value
import Idealize.ShloMosaic.Lib.StableHlo.Run
import Idealize.ShloMosaic.Lib.Tactic

/-!
# The input blocks, read off the arguments

At grid point `t` every matrix window's block is rows `256 t … 256 t + 255` (all 2048 lanes) of its argument, and the
weight window's block is the same rows of the weight vector, which the program first reshapes to a column.
-/

set_option maxRecDepth 16384

noncomputable section

open Idealize.ShloMosaic Idealize.ShloMosaic.TcCoe Idealize.SL.Sem Idealize.ShloMosaic.ValueIdx

namespace Cert.KernelIdeal.Blocks
open Cert.KernelIdeal Cert.KernelIdeal.Gen
variable {F : FTy → Type} [FloatOps F]
variable (m : (ℓ : Loc nD τ sig) → Buf (Elt F) ℓ)

/-- The array row that row `r` of point `t`'s block is: row `256 t + r`. -/
def arow (t : Fin cfg0.N) (r : Fin 256) : Fin 8192 := GridSum.row 32 256 rfl (Fin.cast N_0 t) r

theorem arow_val (t : Fin cfg0.N) (r : Fin 256) : (arow t r).val = 256 * t.val + r.val := rfl

/-- Every input window's block index at point `t` is `(t, 0)`. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0))

/-- Window 0's block at point `t` is rows `256 t … 256 t + 255` of `main_arg0`. -/
theorem iblk0_apply (c : Dev nD) (t : Fin cfg0.N) (r : Fin 256) (l : Fin 2048) :
    (iblk m c 0 t : Vec F S256x2048 .f32) (ix2 r l) = m ((c : Thread nD τ).loc main_arg0) (ix2 (arow t r) l) := by
  have hi := idx_facts t
  unfold iblk
  rw [View.read_apply]
  show V m c main_arg0 _ = _
  rw [V_main_arg0]
  refine congrArg _ ?_
  funext a
  apply Fin.ext
  match a with
  | ⟨0, _⟩ => show win0_0.index t 0 * 256 + 1 * r.val = 256 * t.val + r.val; rw [hi.1.1]; omega
  | ⟨1, _⟩ => show win0_0.index t 1 * 2048 + 1 * l.val = l.val; rw [hi.1.2]; omega

/-- Window 1's block at point `t` is rows `256 t … 256 t + 255` of `main_arg1`. -/
theorem iblk1_apply (c : Dev nD) (t : Fin cfg0.N) (r : Fin 256) (l : Fin 2048) :
    (iblk m c 1 t : Vec F S256x2048 .f32) (ix2 r l) = m ((c : Thread nD τ).loc main_arg1) (ix2 (arow t r) l) := by
  have hi := idx_facts t
  unfold iblk
  rw [View.read_apply]
  show V m c main_arg1 _ = _
  rw [V_main_arg1]
  refine congrArg _ ?_
  funext a
  apply Fin.ext
  match a with
  | ⟨0, _⟩ => show win0_1.index t 0 * 256 + 1 * r.val = 256 * t.val + r.val; rw [hi.2.1.1]; omega
  | ⟨1, _⟩ => show win0_1.index t 1 * 2048 + 1 * l.val = l.val; rw [hi.2.1.2]; omega

/-- Window 3's block at point `t` is rows `256 t … 256 t + 255` of `main_arg3`. -/
theorem iblk3_apply (c : Dev nD) (t : Fin cfg0.N) (r : Fin 256) (l : Fin 2048) :
    (iblk m c 3 t : Vec F S256x2048 .f32) (ix2 r l) = m ((c : Thread nD τ).loc main_arg3) (ix2 (arow t r) l) := by
  have hi := idx_facts t
  unfold iblk
  rw [View.read_apply]
  show V m c main_arg3 _ = _
  rw [V_main_arg3]
  refine congrArg _ ?_
  funext a
  apply Fin.ext
  match a with
  | ⟨0, _⟩ => show win0_3.index t 0 * 256 + 1 * r.val = 256 * t.val + r.val; rw [hi.2.2.2.1.1]; omega
  | ⟨1, _⟩ => show win0_3.index t 1 * 2048 + 1 * l.val = l.val; rw [hi.2.2.2.1.2]; omega

/-- Window 4's block at point `t` is rows `256 t … 256 t + 255` of `main_arg4`. -/
theorem iblk4_apply (c : Dev nD) (t : Fin cfg0.N) (r : Fin 256) (l : Fin 2048) :
    (iblk m c 4 t : Vec F S256x2048 .f32) (ix2 r l) = m ((c : Thread nD τ).loc main_arg4) (ix2 (arow t r) l) := by
  have hi := idx_facts t
  unfold iblk
  rw [View.read_apply]
  show V m c main_arg4 _ = _
  rw [V_main_arg4]
  refine congrArg _ ?_
  funext a
  apply Fin.ext
  match a with
  | ⟨0, _⟩ => show win0_4.index t 0 * 256 + 1 * r.val = 256 * t.val + r.val; rw [hi.2.2.2.2.1.1]; omega
  | ⟨1, _⟩ => show win0_4.index t 1 * 2048 + 1 * l.val = l.val; rw [hi.2.2.2.2.1.2]; omega

/-- Window 5's block at point `t` is rows `256 t … 256 t + 255` of `main_arg5`. -/
theorem iblk5_apply (c : Dev nD) (t : Fin cfg0.N) (r : Fin 256) (l : Fin 2048) :
    (iblk m c 5 t : Vec F S256x2048 .f32) (ix2 r l) = m ((c : Thread nD τ).loc main_arg5) (ix2 (arow t r) l) := by
  have hi := idx_facts t
  unfold iblk
  rw [View.read_apply]
  show V m c main_arg5 _ = _
  rw [V_main_arg5]
  refine congrArg _ ?_
  funext a
  apply Fin.ext
  match a with
  | ⟨0, _⟩ => show win0_5.index t 0 * 256 + 1 * r.val = 256 * t.val + r.val; rw [hi.2.2.2.2.2.1]; omega
  | ⟨1, _⟩ => show win0_5.index t 1 * 2048 + 1 * l.val = l.val; rw [hi.2.2.2.2.2.2]; omega

/-- The weight window's array, as the region finds it: the weight vector reshaped to a column. -/
theorem V_weight (c : Dev nD) :
    (V m c main_v0 : S8192x1.Idx → Elt F .f32) = shapeCast S8192x1 (m ((c : Thread nD τ).loc main_arg2)) shapeCasts_S8192_S8192x1 := by
  show StableHlo.after hostOps0 (fun b => m (c, b)) (Proc.devRef .tc main_v0) = _
  after_results
  rfl

/-- The weight window's block at point `t` is entries `256 t … 256 t + 255` of the weight vector. -/
theorem iblk2_apply (c : Dev nD) (t : Fin cfg0.N) (r : Fin 256) (u : Fin 1) :
    (iblk m c 2 t : Vec F S256x1 .f32) (ix2 r u) = m ((c : Thread nD τ).loc main_arg2) (ix1 (arow t r)) := by
  have hi := idx_facts t
  unfold iblk
  rw [View.read_apply]
  show V m c main_v0 _ = _
  rw [V_weight]
  refine (congrArg _ (?_ : _ = ix2 (arow t r) (0 : Fin 1))).trans
    (BlockTotal.shapeCast_col_apply (R := 8192) (m ((c : Thread nD τ).loc main_arg2)) shapeCasts_S8192_S8192x1 (arow t r) 0)
  funext a
  apply Fin.ext
  have hu : u.val = 0 := by omega
  match a with
  | ⟨0, _⟩ => show win0_2.index t 0 * 256 + 1 * r.val = 256 * t.val + r.val; rw [hi.2.2.1.1]; omega
  | ⟨1, _⟩ => show win0_2.index t 1 * 1 + 1 * u.val = 0; rw [hi.2.2.1.2, hu]

end Cert.KernelIdeal.Blocks

end
-- ==== Proof.KernelTotals.lean ====
import proofs.«165199_j9749575762182_1_alg».proof.Proof.KernelChain
import proofs.«165199_j9749575762182_1_alg».proof.Proof.KernelPayloads
import proofs.«165199_j9749575762182_1_alg».proof.Proof.KernelBlocks

/-!
# The running totals after the last point are the sums over the whole arrays

Over the extended reals the squared-error total after point `n` is the sum, over the points `0 … n`, of each point's
block total (the zero stored at point 0 adds nothing), and likewise the cross-entropy total; a point's block total is a
double sum over the block's rows and lanes of the entrywise terms of the arguments at rows `256 t + r`. After the last
of the 32 points the sum over points and block rows is the sum over all 8192 rows: addition of extended reals is
commutative and associative, and nothing else is used.
-/

set_option maxRecDepth 16384

noncomputable section

open Idealize.ShloMosaic Idealize.ShloMosaic.TcCoe Idealize.SL.Sem Idealize.ShloMosaic.ValueIdx

namespace Cert.KernelIdeal.Totals
open Cert.KernelIdeal Cert.KernelIdeal.Gen Cert.KernelIdeal.Chain Cert.KernelIdeal.Blocks
variable (m : (ℓ : Loc nD τ sig) → Buf (Elt Ideal) ℓ)

/-- Point `t`'s squared-error block total, over the arguments. -/
def blockSq (c : Dev nD) (t : Fin cfg0.N) : EReal :=
  ∑ r : Fin 256, ∑ l : Fin 2048,
    Cert.Loss.sq (m ((c : Thread nD τ).loc main_arg2) (ix1 (arow t r))) (m ((c : Thread nD τ).loc main_arg1) (ix2 (arow t r) l))
      (m ((c : Thread nD τ).loc main_arg0) (ix2 (arow t r) l))

/-- Point `t`'s cross-entropy block total, over the arguments. -/
def blockCe (c : Dev nD) (t : Fin cfg0.N) : EReal :=
  ∑ r : Fin 256, ∑ l : Fin 2048,
    Cert.Loss.ce (m ((c : Thread nD τ).loc main_arg3) (ix2 (arow t r) l)) (m ((c : Thread nD τ).loc main_arg4) (ix2 (arow t r) l))
      (m ((c : Thread nD τ).loc main_arg5) (ix2 (arow t r) l))

/-- The squared-error payload at point `t`: the carried total plus the point's block total. -/
theorem stepSq (c : Dev nD) (t : Fin cfg0.N) (acc : Vec Ideal S1x1 .f32) (u u' : Fin 1) :
    k0_pay6 (F := Ideal) (iblk m c 1 t) (iblk m c 0 t) (iblk m c 2 t) acc (ix2 u u') = acc (ix2 u u') + blockSq m c t := by
  refine (Pay.pay6_apply (iblk m c 1 t) (iblk m c 0 t) (iblk m c 2 t) acc u u').trans ?_
  refine congrArg (acc (ix2 u u') + ·) ?_
  unfold blockSq
  refine Finset.sum_congr rfl fun r _ => Finset.sum_congr rfl fun l _ => ?_
  rw [iblk2_apply m c t r 0, iblk1_apply m c t r l, iblk0_apply m c t r l]

/-- The cross-entropy payload at point `t`: the carried total plus the point's block total. -/
theorem stepCe (c : Dev nD) (t : Fin cfg0.N) (acc : Vec Ideal S1x1 .f32) (u u' : Fin 1) :
    k0_pay1 (F := Ideal) (k0_pay7 (F := Ideal) (iblk m c 3 t) (iblk m c 4 t)) (iblk m c 5 t) acc (ix2 u u')
      = acc (ix2 u u') + blockCe m c t := by
  refine (Pay.pay1_apply (iblk m c 3 t) (iblk m c 4 t) (iblk m c 5 t) acc u u').trans ?_
  refine congrArg (acc (ix2 u u') + ·) ?_
  unfold blockCe
  refine Finset.sum_congr rfl fun r _ => Finset.sum_congr rfl fun l _ => ?_
  rw [iblk3_apply m c t r l, iblk4_apply m c t r l, iblk5_apply m c t r l]

/-- The squared-error running total after point `n` is the sum of the block totals of points `0 … n`. -/
theorem accSq_apply (c : Dev nD) : ∀ (n : ℕ) (h : n < cfg0.N) (u u' : Fin 1),
    accSq m c n h (ix2 u u') = ∑ t : Fin (n + 1), blockSq m c (Fin.castLE h t)
  | 0, h, u, u' => by
    show k0_pay6 (F := Ideal) (iblk m c 1 ⟨0, h⟩) (iblk m c 0 ⟨0, h⟩) (iblk m c 2 ⟨0, h⟩) (k0_pay4 (F := Ideal)) (ix2 u u') = _
    rw [stepSq m c ⟨0, h⟩ _ u u', Pay.pay4_apply, zero_add]
    exact (GridSum.sum_castLE_one (blockSq m c) h).symm
  | n + 1, h, u, u' => by
    show k0_pay6 (F := Ideal) (iblk m c 1 ⟨n + 1, h⟩) (iblk m c 0 ⟨n + 1, h⟩) (iblk m c 2 ⟨n + 1, h⟩) (accSq m c n (Nat.lt_of_succ_lt h)) (ix2 u u') = _
    rw [stepSq m c ⟨n + 1, h⟩ _ u u', accSq_apply c n (Nat.lt_of_succ_lt h) u u']
    exact (GridSum.sum_castLE_succ (blockSq m c) n h).symm

/-- The cross-entropy running total after point `n` is the sum of the block totals of points `0 … n`. -/
theorem accCe_apply (c : Dev nD) : ∀ (n : ℕ) (h : n < cfg0.N) (u u' : Fin 1),
    accCe m c n h (ix2 u u') = ∑ t : Fin (n + 1), blockCe m c (Fin.castLE h t)
  | 0, h, u, u' => by
    show k0_pay1 (F := Ideal) (k0_pay7 (F := Ideal) (iblk m c 3 ⟨0, h⟩) (iblk m c 4 ⟨0, h⟩)) (iblk m c 5 ⟨0, h⟩) (k0_pay5 (F := Ideal)) (ix2 u u') = _
    rw [stepCe m c ⟨0, h⟩ _ u u', Pay.pay5_apply, zero_add]
    exact (GridSum.sum_castLE_one (blockCe m c) h).symm
  | n + 1, h, u, u' => by
    show k0_pay1 (F := Ideal) (k0_pay7 (F := Ideal) (iblk m c 3 ⟨n + 1, h⟩) (iblk m c 4 ⟨n + 1, h⟩)) (iblk m c 5 ⟨n + 1, h⟩) (accCe m c n (Nat.lt_of_succ_lt h)) (ix2 u u') = _
    rw [stepCe m c ⟨n + 1, h⟩ _ u u', accCe_apply c n (Nat.lt_of_succ_lt h) u u']
    exact (GridSum.sum_castLE_succ (blockCe m c) n h).symm

/-- Row `r` of the block of the point that the `t`-th of 32 names is row `r` of block `t`. -/
theorem arow_castLE (h : 31 + 1 ≤ cfg0.N) (t : Fin (31 + 1)) (r : Fin 256) :
    arow (Fin.castLE h t) r = GridSum.row 32 256 rfl t r := Fin.ext rfl

/-- After the last point the squared-error total is the sum over the whole arrays. -/
theorem accSq_last (c : Dev nD) (h : 31 < cfg0.N) (u u' : Fin 1) :
    accSq m c 31 h (ix2 u u')
      = Cert.Loss.sqTotal (m ((c : Thread nD τ).loc main_arg0)) (m ((c : Thread nD τ).loc main_arg1)) (m ((c : Thread nD τ).loc main_arg2)) := by
  rw [accSq_apply m c 31 h u u']
  unfold Cert.Loss.sqTotal
  refine Eq.trans ?_ (GridSum.sum_split_rows (N := 8192) 32 256 rfl _).symm
  refine Finset.sum_congr rfl fun t _ => ?_
  unfold blockSq
  refine Finset.sum_congr rfl fun r _ => ?_
  rw [arow_castLE h t r]

/-- After the last point the cross-entropy total is the sum over the whole arrays. -/
theorem accCe_last (c : Dev nD) (h : 31 < cfg0.N) (u u' : Fin 1) :
    accCe m c 31 h (ix2 u u')
      = Cert.Loss.ceTotal (m ((c : Thread nD τ).loc main_arg3)) (m ((c : Thread nD τ).loc main_arg4)) (m ((c : Thread nD τ).loc main_arg5)) := by
  rw [accCe_apply m c 31 h u u']
  unfold Cert.Loss.ceTotal
  refine Eq.trans ?_ (GridSum.sum_split_rows (N := 8192) 32 256 rfl _).symm
  refine Finset.sum_congr rfl fun t _ => ?_
  unfold blockCe
  refine Finset.sum_congr rfl fun r _ => ?_
  rw [arow_castLE h t r]

end Cert.KernelIdeal.Totals

end
-- ==== Proof.KernelResults.lean ====
import proofs.«165199_j9749575762182_1_alg».proof.Proof.KernelValue
import proofs.«165199_j9749575762182_1_alg».proof.Proof.KernelTotals

/-!
# The kernel program's two results are the two losses

Over the extended reals each result is the one entry of an output array, which is the running total after the last point
over the element count, and that total is the sum over the whole arrays: the mean weighted squared error and the mean
weighted cross-entropy of the arguments.
-/

set_option maxRecDepth 16384

noncomputable section

open Idealize.ShloMosaic Idealize.ShloMosaic.TcCoe Idealize.SL.Sem Idealize.ShloMosaic.ValueIdx

namespace Cert.KernelIdeal.Results
open Cert.KernelIdeal Cert.KernelIdeal.Gen Cert.KernelIdeal.Chain Cert.KernelIdeal.Final
variable (m : (ℓ : Loc nD τ sig) → Buf (Elt Ideal) ℓ)

/-- A one-entry array `[1, 1]` reshaped to a scalar reads that entry. -/
theorem scalar_apply (x : S1x1.Idx → EReal) (i : S_.Idx) : shapeCast S_ x shapeCasts_S1x1_S_ i = x (ix2 (0 : Fin 1) (0 : Fin 1)) :=
  shapeCast_apply x shapeCasts_S1x1_S_ i (ix2 (0 : Fin 1) (0 : Fin 1)) (by
    have h : (S_.rowMajor i).val < 1 := (S_.rowMajor i).isLt
    rw [Shape.rowMajor_val_two]
    show 0 * 1 + 0 = _
    omega)

/-- The first result is the mean weighted squared error of the arguments. -/
theorem first_eq (c : Dev nD) :
    shapeCast S_ (res6 m c) shapeCasts_S1x1_S_
      = fun _ => Cert.Loss.wmse (m ((c : Thread nD τ).loc main_arg0)) (m ((c : Thread nD τ).loc main_arg1)) (m ((c : Thread nD τ).loc main_arg2)) := by
  funext i
  refine (scalar_apply (res6 m c) i).trans ?_
  show k0_pay2 (F := Ideal) (accSq m c (30 + 1) hlast) (ix2 (0 : Fin 1) (0 : Fin 1)) = _
  rw [Pay.pay2_apply, Totals.accSq_last m c hlast 0 0]
  rfl

/-- The second result is the mean weighted cross-entropy of the arguments. -/
theorem second_eq (c : Dev nD) :
    shapeCast S_ (res7 m c) shapeCasts_S1x1_S_
      = fun _ => Cert.Loss.wcl (m ((c : Thread nD τ).loc main_arg3)) (m ((c : Thread nD τ).loc main_arg4)) (m ((c : Thread nD τ).loc main_arg5)) := by
  funext i
  refine (scalar_apply (res7 m c) i).trans ?_
  show k0_pay3 (F := Ideal) (accCe m c (30 + 1) hlast) (ix2 (0 : Fin 1) (0 : Fin 1)) = _
  rw [Pay.pay3_apply, Totals.accCe_last m c hlast 0 0]
  rfl

end Cert.KernelIdeal.Results

end
-- ==== Proof.lean ====
/-
  The kernel computes two scalar losses of six arrays in one pass over 32 blocks of 256 rows: the mean over all
  8192 × 2048 entries of (w p · (target − input))², and the mean of |(t · log (x + ε) + (1 − t) · log ((1 − x) + ε)) · o|.
  Each block's contribution is summed first along the lanes and then down the rows, accumulated in a one-entry scratch
  buffer that starts at zero, and after the last block divided by the element count. The reference sums each term over
  the whole arrays at once and divides by the same count. Over the extended reals the two agree because addition is
  commutative and associative: the sum over blocks, rows of a block and lanes is the sum over all entries, and the zero
  the accumulators start from adds nothing. Every entrywise operation and every float literal is the same on both
  sides. No finiteness of the inputs is used.

  The three frames are the generated ones (the reference's is its generated run with the results dropped); the kernel's
  idealization rewrote nothing.
-/
import proofs.«165199_j9749575762182_1_alg».proof.Defs
import proofs.«165199_j9749575762182_1_alg».proof.Proof.Gen.Kernel
import proofs.«165199_j9749575762182_1_alg».proof.Proof.Gen.Kernel.Skeleton
import proofs.«165199_j9749575762182_1_alg».proof.Proof.Gen.Kernel.Launch
import proofs.«165199_j9749575762182_1_alg».proof.Proof.Gen.Kernel.Points
import proofs.«165199_j9749575762182_1_alg».proof.Proof.Gen.Kernel.Frame
import proofs.«165199_j9749575762182_1_alg».proof.Proof.Gen.KernelIdeal
import proofs.«165199_j9749575762182_1_alg».proof.Proof.Gen.KernelIdeal.Skeleton
import proofs.«165199_j9749575762182_1_alg».proof.Proof.Gen.KernelIdeal.Launch
import proofs.«165199_j9749575762182_1_alg».proof.Proof.Gen.KernelIdeal.Points
import proofs.«165199_j9749575762182_1_alg».proof.Proof.Gen.KernelIdeal.Frame
import proofs.«165199_j9749575762182_1_alg».proof.Proof.Gen.ReferenceIdeal
import proofs.«165199_j9749575762182_1_alg».proof.Proof.Gen.Pre_finite_inputs
import proofs.«165199_j9749575762182_1_alg».proof.Proof.RefRead
import proofs.«165199_j9749575762182_1_alg».proof.Proof.KernelResults
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the mean weighted squared error and the mean weighted cross-entropy of arguments that
    agree. -/
theorem algebraic : Cert.algebraic_KernelIdeal_ReferenceIdeal := by
  intro m ρ m' ρ' _ hagree
  refine ⟨fun c => shapeCast Cert.KernelIdeal.S_ (Cert.KernelIdeal.Final.res6 m c) Cert.KernelIdeal.Facts₀.shapeCasts_S1x1_S_,
    fun c => shapeCast Cert.KernelIdeal.S_ (Cert.KernelIdeal.Final.res7 m c) Cert.KernelIdeal.Facts₀.shapeCasts_S1x1_S_,
    Cert.KernelIdeal.Final.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.ReferenceIdeal.RefValue.v6_eq, (hagree c).1, (hagree c).2.1,
      (hagree c).2.2.1]
    exact (Cert.KernelIdeal.Results.first_eq m c).symm
  · rw [Cert.ReferenceIdeal.Read.val_main_v23_eq, Cert.ReferenceIdeal.RefValue.v23_eq, (hagree c).2.2.2.1, (hagree c).2.2.2.2.1,
      (hagree c).2.2.2.2.2]
    exact (Cert.KernelIdeal.Results.second_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
